-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : FVec F S256x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S5000x128 : Shape := ⟨2, ![5000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩

abbrev nBuf : Space → Nat
  | .hbm => 19
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S50000x128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x256, .f32⟩
  | .hbm, ⟨16, _⟩ => ⟨S800000x128, .f32⟩
  | .hbm, ⟨17, _⟩ => ⟨S1x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.MlpSpec.lean ====
/-
  The function both programs compute, stated once over the literal shapes and with no program in sight.

  `mlp x w₁ b₁ w₂ b₂` is the table [50000, 128] whose row `n` is the two-layer perceptron of row `n` of `x`:

      mlp (n, q) = ∑_k max (∑_c x (n, c) · w₁ (c, k) + b₁ k, 0) · w₂ (k, q) + b₂ q

  (the zero is kept as the word both programs print for it, so it is never evaluated). The kernel produces this table
  block by block with `w₁` the first-layer weight folded in two, and then gathers rows of it; the reference gathers rows
  of `x`, doubles them and applies the perceptron with the unfolded weight.
-/
import Idealize.ShloMosaic.PureOps.Ideal
import Idealize.ShloMosaic.Lib.ValueIdx

noncomputable section

open scoped BigOperators

namespace Cert.MlpSpec

open Idealize.ShloMosaic Idealize.ShloMosaic.ValueIdx

/-- One hidden unit of one row: the first layer's affine map of the row, clamped below at zero. `R` is the number of rows
    of the table the row is taken from (a block of 5000 rows or the whole table of 50000). -/
def hidden {R : Nat} (x : (⟨2, ![R, 128]⟩ : Shape).Idx → EReal) (w1 : (⟨2, ![128, 128]⟩ : Shape).Idx → EReal)
    (b1 : (⟨1, ![128]⟩ : Shape).Idx → EReal) (n : Fin R) (k : Fin 128) : EReal :=
  max ((∑ c : Fin 128, x (ix2 n c) * w1 (ix2 c k)) + b1 (ix1 k)) (Ideal.ofBits .f32 0x00000000#32)

/-- One output of one row: the second layer's affine map of the row's hidden units. -/
def out {R : Nat} (x : (⟨2, ![R, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (n : Fin R) (q : Fin 128) : EReal :=
  (∑ k : Fin 128, hidden x w1 b1 n k * w2 (ix2 k q)) + b2 (ix1 q)

/-- The perceptron applied to every row of a table. -/
def mlp {R : Nat} (x : (⟨2, ![R, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![R, 128]⟩ : Shape).Idx → EReal :=
  fun i => out x w1 b1 w2 b2 (i 0) (i 1)

/-- A row's output depends on that row of the table, on the weights and on the biases only through the entries it names:
    two sets of operands that agree on those entries give the same output. -/
theorem out_eq {R R' : Nat} (x : (⟨2, ![R, 128]⟩ : Shape).Idx → EReal) (x' : (⟨2, ![R', 128]⟩ : Shape).Idx → EReal)
    (w1 w1' : (⟨2, ![128, 128]⟩ : Shape).Idx → EReal) (b1 b1' : (⟨1, ![128]⟩ : Shape).Idx → EReal)
    (w2 w2' : (⟨2, ![128, 128]⟩ : Shape).Idx → EReal) (b2 b2' : (⟨1, ![128]⟩ : Shape).Idx → EReal)
    (n : Fin R) (n' : Fin R') (q : Fin 128)
    (hx : ∀ c : Fin 128, x (ix2 n c) = x' (ix2 n' c)) (hw1 : ∀ c k : Fin 128, w1 (ix2 c k) = w1' (ix2 c k))
    (hb1 : ∀ k : Fin 128, b1 (ix1 k) = b1' (ix1 k)) (hw2 : ∀ k : Fin 128, w2 (ix2 k q) = w2' (ix2 k q))
    (hb2 : b2 (ix1 q) = b2' (ix1 q)) :
    out x w1 b1 w2 b2 n q = out x' w1' b1' w2' b2' n' q := by
  unfold out hidden
  simp only [hx, hw1, hb1, hw2, hb2]

end Cert.MlpSpec

end
-- ==== Proof.BlockValue.lean ====
/-
  What the kernel body stores, read at one element.

  The body loads a block of 5000 rows of the table, the folded first-layer weight, the two biases and the second-layer
  weight, and stores ONE value: two matrix products into zero accumulators, each followed by a bias row broadcast over
  the block, with a clamp at zero between them (the changes of float format are the identity on the extended reals). At
  row `p` and column `q` of the block that value is the perceptron's output `q` for row `p` of the block: each matrix
  product is the sum over its one contracted axis of the products of the operands' entries, and a bias row cast to
  [1, 128] and broadcast to [5000, 128] reads the bias at the column.
-/
import proofs.«156043_j64879775973998_2_alg».proof.Proof.Gen.KernelIdeal.Skeleton
import proofs.«156043_j64879775973998_2_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The kernel's matrix product read at an index -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block [5000, 128] times a matrix [128, 128] into a zero accumulator, at row `p` and column `q`: the sum over the
    contracted axis of the row's entries times the column's. -/
theorem matmul_zero_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-! ## A bias row over the block -/

/-- A bias [128] cast to one row [1, 128] and broadcast over the block's 5000 rows reads the bias at the column. -/
theorem bias_apply (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ _ p q).trans (shapeCast_a_1a_apply b _ 0 q)

/-! ## The stored value -/

/-- The body's one stored value at row `p`, column `q` of the block: the perceptron's output `q` of the block's row `p`. -/
theorem pay_apply (x0 : Vec Ideal S5000x128 .f32) (w1 : Vec Ideal S128x128 .f32) (b1 : Vec Ideal S128 .f32)
    (w2 : Vec Ideal S128x128 .f32) (b2 : Vec Ideal S128 .f32) (p : Fin 5000) (q : Fin 128) :
    k0_pay1 (F := Ideal) x0 w1 b1 w2 b2 (ix2 p q) = MlpSpec.out x0 w1 b1 w2 b2 p q := by
  unfold k0_pay1 MlpSpec.out MlpSpec.hidden
  refine congrArg₂ (· + ·) ?_ (bias_apply b2 p q)
  refine (matmul_zero_apply _ _ p q).trans ?_
  refine Finset.sum_congr rfl fun k _ => ?_
  refine congrArg₂ (· * ·) ?_ rfl
  refine congrArg₂ max ?_ rfl
  refine congrArg₂ (· + ·) ?_ (bias_apply b1 p k)
  refine (matmul_zero_apply _ _ p k).trans ?_
  refine Finset.sum_congr rfl fun c _ => ?_
  refine congrArg₂ (· * ·) rfl ?_
  show shapeCast S128x128 w1 shapeCasts_S128x128_S128x128 (ix2 c k) = w1 (ix2 c k)
  rw [shapeCast_self]

end Cert.KernelIdeal.BlockValue

end
-- ==== Proof.KernelTable.lean ====
/-
  From blocks to the table: what the kernel's output array holds when the region ends.

  The grid has ten points; point `t` reads rows `5000·t … 5000·t + 4999` of the node table and the whole of the folded
  weight, the biases and the second weight (their index maps are constantly zero), and writes back rows
  `5000·t … 5000·t + 4999` of the output. What it writes back is the perceptron of the rows it read, so it is block `t` of
  ONE table, `MlpSpec.mlp` of the arrays as the region finds them; the ten blocks tile the 50000 rows (row `r` lies in
  block `r / 5000`), so the output array ends holding that table.
-/
import proofs.«156043_j64879775973998_2_alg».proof.Proof.Gen.KernelIdeal.Frame
import proofs.«156043_j64879775973998_2_alg».proof.Proof.BlockValue
import Idealize.ShloMosaic.Lib.Pipeline.Value

set_option maxRecDepth 16384

noncomputable section

namespace Cert.KernelIdeal.Table

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The printed index maps, decided once over the ten grid points: the table's window moves with the output's along the
    rows, and every other block index is zero. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 9 ∧ win0_5.index t (1 : Fin 2) = 0 :=
  (by decide +kernel : ∀ t : Fin grid0.N, _)

/-- Every block of rows is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- The table the output array ends at: the perceptron of every row of the node table, with the arrays as the region
    finds them. -/
abbrev table (c : Dev nD) : S50000x128.Idx → EReal :=
  MlpSpec.mlp (V m c main_arg0) (V m c main_v2) (V m c main_arg3) (V m c main_arg4) (V m c main_arg5)

/-- WHAT POINT `t` WRITES BACK is block `t` of that table. -/
theorem flushed_eq (c : Dev nD) (t : Fin cfg0.N) :
    (dats m 0 c).flushed 5 t = ((cfg0.win 5).blk t).view.read (Elt Ideal) (table m c) := by
  show (cfg0.win 5).cut (grid0.coords t) ((dats m 0 c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  have hp : p.val < 5000 := p.isLt
  -- the row of the table that row `p` of block `t` is
  let n : Fin 50000 := ⟨win0_5.index t (0 : Fin 2) * 5000 + p.val, by omega⟩
  have hemb : (((cfg0.win 5).blk t).view.emb (ix2 p q) : S50000x128.Idx) = ix2 n q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  show k0_pay1 (F := Ideal) (iblk m c 0 t) (iblk m c 1 t) (iblk m c 2 t) (iblk m c 3 t) (iblk m c 4 t) (ix2 p q)
    = table m c (((cfg0.win 5).blk t).view.emb (ix2 p q))
  rw [hemb]
  refine (BlockValue.pay_apply (iblk m c 0 t) (iblk m c 1 t) (iblk m c 2 t) (iblk m c 3 t) (iblk m c 4 t) p q).trans ?_
  show MlpSpec.out (iblk m c 0 t) (iblk m c 1 t) (iblk m c 2 t) (iblk m c 3 t) (iblk m c 4 t) p q
    = MlpSpec.out (V m c main_arg0) (V m c main_v2) (V m c main_arg3) (V m c main_arg4) (V m c main_arg5) n q
  refine MlpSpec.out_eq _ _ _ _ _ _ _ _ _ _ p n q ?_ ?_ ?_ ?_ ?_
  · intro cc
    show V m c main_arg0 (((cfg0.win 0).blk t).view.emb (ix2 p cc)) = V m c main_arg0 (ix2 n cc)
    refine congrArg _ (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * cc.val = cc.val; omega
  · intro cc k
    show V m c main_v2 (((cfg0.win 1).blk t).view.emb (ix2 cc k)) = V m c main_v2 (ix2 cc k)
    refine congrArg _ (funext fun a => Fin.ext ?_)
    match a with
    | ⟨0, _⟩ => show win0_1.index t (0 : Fin 2) * 128 + 1 * cc.val = cc.val; omega
    | ⟨1, _⟩ => show win0_1.index t (1 : Fin 2) * 128 + 1 * k.val = k.val; omega
  · intro k
    show V m c main_arg3 (((cfg0.win 2).blk t).view.emb (ix1 k)) = V m c main_arg3 (ix1 k)
    refine congrArg _ (funext fun a => Fin.ext ?_)
    match a with
    | ⟨0, _⟩ => show win0_2.index t (0 : Fin 1) * 128 + 1 * k.val = k.val; omega
  · intro k
    show V m c main_arg4 (((cfg0.win 3).blk t).view.emb (ix2 k q)) = V m c main_arg4 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V m c main_arg5 (((cfg0.win 4).blk t).view.emb (ix1 q)) = V m c main_arg5 (ix1 q)
    refine congrArg _ (funext fun a => Fin.ext ?_)
    match a with
    | ⟨0, _⟩ => show win0_4.index t (0 : Fin 1) * 128 + 1 * q.val = q.val; omega

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v3).slice (win0_5.rect t)).set ↔ _
  rw [View.set_slice_whole, Rect.mem_set_unit]
  exact Iff.rfl

/-- The ten blocks cover the 50000 rows: row `r` is in block `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE OUTPUT ARRAY when the region ends: the perceptron of every row of the node table. -/
theorem final (c : Dev nD) : (dats m 0 c).arrAt 5 cfg0.N = table m c :=
  (dats m 0 c).arrAt_eq_of_cover 5 (table m c) (fun t _ => flushed_eq m c t) cover

end Cert.KernelIdeal.Table

end
-- ==== Proof.KernelRun.lean ====
/-
  The kernel program's run, read: what its result array holds when @main ends.

  Before the region @main folds the first-layer weight in two (rows 0–127 plus rows 128–255); the region leaves the
  perceptron table of the node table under that folded weight in its output array (`Table.final`); after the region
  @main wraps negative start indices and gathers rows of that table. So the result is the gather, at the wrapped start
  indices, of the perceptron table — stated here with every array named by the launch memory `m`.
-/
import proofs.«156043_j64879775973998_2_alg».proof.Proof.KernelTable
import Idealize.ShloMosaic.Lib.StableHlo.Run
import Idealize.ShloMosaic.Lib.ValueLayout

set_option maxRecDepth 16384

noncomputable section

namespace Cert.KernelIdeal.Run

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

/-- The first-layer weight folded in two: its upper half plus its lower half. -/
def foldedW (a2 : FVec Ideal S256x128 .f32) : FVec Ideal S128x128 .f32 :=
  addf (extractStridedSlice S128x128 ![0, 0] a2 slices_S256x128_S128x128_0_0)
    (extractStridedSlice S128x128 ![128, 0] a2 slices_S256x128_S128x128_128_0)

/-- Entry (c, k) of the folded weight is entry (c, k) plus entry (128 + c, k) of the whole weight. -/
theorem foldedW_apply (a2 : FVec Ideal S256x128 .f32) (c k : Fin 128) :
    foldedW a2 (ix2 c k) = a2 (ix2 (⟨c.val, by omega⟩ : Fin 256) k) + a2 (ix2 (⟨128 + c.val, by omega⟩ : Fin 256) k) :=
  congrArg₂ (· + ·)
    (slice2_axis0_apply 0 a2 slices_S256x128_S128x128_0_0 c k ⟨c.val, by omega⟩ (Nat.zero_add _).symm)
    (slice2_axis0_apply 128 a2 slices_S256x128_S128x128_128_0 c k ⟨128 + c.val, by omega⟩ rfl)

/-- The start indices the gather is given: a negative index wrapped by the table's length, as one column. -/
def startIdx (a1 : IVec S800000 32) : IVec S800000x1 32 :=
  broadcastInDim S800000x1 ![0] bcast_S800000_S800000x1_0
    (select (cmpi .slt a1 (broadcastInDim S800000 ![] bcast_S_S800000 (constantI S_ 32 0#32)))
      (addi a1 (broadcastInDim S800000 ![] bcast_S_S800000 (constantI S_ 32 50000#32))) a1)

variable (m : (ℓ : Loc nD τ sig) → Buf (Elt Ideal) ℓ) (ρ : Dev nD → PrngReg)

/-- The region finds the folded weight in its second window's array. -/
theorem V_main_v2 (c : Dev nD) :
    (V m c main_v2 : S128x128.Idx → EReal) = foldedW (m ((c : Thread nD τ).loc main_arg2)) := by
  show StableHlo.after hostOps0 (fun b => m (c, b)) (Proc.devRef .tc main_v2) = _
  after_results
  rfl

/-- The perceptron table with every array named by the launch memory. -/
theorem table_eq (c : Dev nD) :
    Table.table m c = MlpSpec.mlp (m ((c : Thread nD τ).loc main_arg0)) (foldedW (m ((c : Thread nD τ).loc main_arg2)))
      (m ((c : Thread nD τ).loc main_arg3)) (m ((c : Thread nD τ).loc main_arg4)) (m ((c : Thread nD τ).loc main_arg5)) := by
  unfold Table.table
  rw [V_main_arg0 m c, V_main_v2 m c, V_main_arg3 m c, V_main_arg4 m c, V_main_arg5 m c]

/-- What the lines after the region leave in the result: the gather of the region's output array. -/
theorem tail_eq (c : Dev nD) :
    (Pipeline.afterTail₀ cfgs (dats m) 0 (V0 m) [hostOps1] c main_v10 : S800000x128.Idx → EReal)
      = Host.gather gather_S50000x128_S800000x1_S800000x128_1_0_n_n_0_1_1128 ((dats m 0 c).arrAt 5 cfg0.N)
          (startIdx (m ((c : Thread nD τ).loc main_arg1))) := by
  unfold Pipeline.afterTail₀
  show StableHlo.after hostOps1 _ (Proc.devRef .tc main_v10) = _
  after_results
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1
      (by exact (by decide : ∀ w, Pipeline.arrRef spec0 w ≠ main_arg1))).trans (V_main_arg1 m c)
  have e3 : Pipeline.withArrays (cfgs 0).spec c (V0 m c) (fun w => (dats m 0 c).arrAt w (cfgs 0).N) (Proc.devRef .tc main_v3)
      = (dats m 0 c).arrAt 5 cfg0.N :=
    Pipeline.withArrays_arr spec0 launch0.win.arr_inj c _ _ 5
  rw [e1, e3]
  rfl

/-- THE RUN: every weakly fair execution of @main terminates with the result array at the gather, at the wrapped start
    indices, of the perceptron table of the node table under the folded weight, and the arguments unchanged. -/
theorem run : θ_run defs (onTc (τ := τ) (main (F := Ideal))) ⟨m, fun _ => 0, ρ⟩ fun r => ∀ c : Dev nD,
      r.2.mem ((c.tc : Thread nD τ).loc main_v10)
        = Host.gather gather_S50000x128_S800000x1_S800000x128_1_0_n_n_0_1_1128
            (MlpSpec.mlp (m ((c.tc : Thread nD τ).loc main_arg0)) (foldedW (m ((c.tc : Thread nD τ).loc main_arg2)))
              (m ((c.tc : Thread nD τ).loc main_arg3)) (m ((c.tc : Thread nD τ).loc main_arg4)) (m ((c.tc : Thread nD τ).loc main_arg5)))
            (startIdx (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v10 (Pipeline.mem_restRefs_of main_v10 (by decide) (by decide))).trans
        ((tail_eq m c).trans (by rw [Table.final m c, table_eq m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩)
    (run_main m ρ)

end Cert.KernelIdeal.Run

end
-- ==== Proof.RefValue.lean ====
/-
  The reference's result, read at one element.

  The reference gathers rows of the node table, writes each gathered row twice side by side (256 entries), and applies
  the perceptron with the whole first-layer weight [256, 128]. Read at row `e` and column `q` of the result, through the
  operations one at a time:

      result (e, q) = ∑_k max (∑_{c < 256} cat (e, c) · W₁ (c, k) + b₁ k, 0) · W₂ (k, q) + b₂ q,

  where `cat (e, c)` and `cat (e, 128 + c)` are both the gathered row's entry `c`: the concatenation's first piece holds the
  columns below 128 and its second piece the columns from 128 on, the first piece's extent less.
-/
import proofs.«156043_j64879775973998_2_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S800000, .i32⟩ : BufTy).Contents (Elt Ideal))
  (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The doubled row's left half is the gathered row. -/
theorem cat_left (e : Fin 800000) (c : Fin 128) :
    val_main_v7 (F := Ideal) x0 x1 (ix2 e (⟨c.val, by omega⟩ : Fin 256)) = val_main_v6 (F := Ideal) x0 x1 (ix2 e c) := by
  unfold val_main_v7
  refine concatenate_pair_apply_left (t := S800000x256) (s₁ := S800000x128) (s₂ := S800000x128) (1 : Fin 2) _ _
    concatenates_S800000x128_S800000x128_S800000x256_d1
    (ix2 e (⟨c.val, by omega⟩ : Fin 256)) rfl (ix2 e c) fun b => ?_
  match b with
  | ⟨0, _⟩ => rfl
  | ⟨1, _⟩ => rfl

/-- The doubled row's right half is the gathered row again. -/
theorem cat_right (e : Fin 800000) (c : Fin 128) :
    val_main_v7 (F := Ideal) x0 x1 (ix2 e (⟨128 + c.val, by omega⟩ : Fin 256)) = val_main_v6 (F := Ideal) x0 x1 (ix2 e c) := by
  unfold val_main_v7
  refine concatenate_pair_apply_right (t := S800000x256) (s₁ := S800000x128) (s₂ := S800000x128) (1 : Fin 2) _ _
    concatenates_S800000x128_S800000x128_S800000x256_d1
    (ix2 e (⟨128 + c.val, by omega⟩ : Fin 256)) rfl rfl (ix2 e c) (fun b hb => ?_) ?_
  · match b with
    | ⟨0, _⟩ => rfl
    | ⟨1, _⟩ => exact absurd rfl hb
  · show c.val + 128 = 128 + c.val
    omega

/-- THE REFERENCE'S RESULT at row `e`, column `q`. -/
theorem result_apply (e : Fin 800000) (q : Fin 128) :
    val_main_v16 (F := Ideal) x0 x1 x2 x3 x4 x5 (ix2 e q)
      = (∑ k : Fin 128, max ((∑ c : Fin 256, val_main_v7 (F := Ideal) x0 x1 (ix2 e c) * x2 (ix2 c k)) + x3 (ix1 k))
            (Ideal.ofBits .f32 0x00000000#32) * x4 (ix2 k q)) + x5 (ix1 q) := by
  have i13l : ∀ k, lidx_main_v13 (ix2 e q) k = ix2 e k := fun k =>
    funext fun a => Fin.ext (by match a with | ⟨0, _⟩ => rfl | ⟨1, _⟩ => rfl)
  have i13r : ∀ k, ridx_main_v13 (ix2 e q) k = ix2 k q := fun k =>
    funext fun a => Fin.ext (by match a with | ⟨0, _⟩ => rfl | ⟨1, _⟩ => rfl)
  have i8l : ∀ (k : Fin 128) (c : Fin 256), lidx_main_v8 (ix2 e k) c = ix2 e c := fun k c =>
    funext fun a => Fin.ext (by match a with | ⟨0, _⟩ => rfl | ⟨1, _⟩ => rfl)
  have i8r : ∀ (k : Fin 128) (c : Fin 256), ridx_main_v8 (ix2 e k) c = ix2 c k := fun k c =>
    funext fun a => Fin.ext (by match a with | ⟨0, _⟩ => rfl | ⟨1, _⟩ => rfl)
  have i10 : ∀ k : Fin 128, idx_main_v9 (idx_main_v10 (ix2 e k)) = ix1 k := fun k =>
    funext fun a => Fin.ext (by match a with | ⟨0, _⟩ => rfl)
  have i15 : idx_main_v14 (idx_main_v15 (ix2 e q)) = ix1 q :=
    funext fun a => Fin.ext (by match a with | ⟨0, _⟩ => rfl)
  rw [val_main_v16_apply, val_main_v13_apply, val_main_v15_apply, val_main_v14_apply, i15]
  simp only [i13l, i13r, val_main_v12_apply, val_main_v11_apply, val_main_v8_apply, val_main_v10_apply, val_main_v9_apply,
    val_main_call0_v0_apply, val_main_call0_cst_apply, i8l, i8r, i10, Ideal.addf_def, Ideal.maximumf_def, Ideal.ofBits_def]

end Cert.ReferenceIdeal.RefValue

end
-- ==== Proof.FoldedWeight.lean ====
/-
  The one algebraic law of this certificate, over abstract index types and with no program in sight.

  A row `x` of 128 real numbers, written twice side by side (`cat`, 256 entries: `cat c = x c` and `cat (128 + c) = x c`),
  contracted against a column `w` of 256 real numbers, is the row contracted once against the column folded in two:

      ∑_{c < 256} cat c · w c  =  ∑_{c < 128} x c · (w c + w (128 + c)).

  The sum over 256 splits into its two halves, the halves are added term by term, and each term is
  `x c · w c + x c · w (128 + c) = x c · (w c + w (128 + c))`: distributivity, which on the extended reals needs the three
  numbers finite (`x · (⊤ + ⊥)` is not `x · ⊤ + x · ⊥` in general), hence the hypotheses that every entry is a real.
-/
import Idealize.ShloMosaic.PureOps.Ideal

open scoped BigOperators

namespace Cert.FoldedWeight

/-- On real entries a product distributes over a sum in the extended reals. -/
theorem mul_add_of_real {x a b : EReal} (hx : ∃ r : ℝ, x = r) (ha : ∃ r : ℝ, a = r) (hb : ∃ r : ℝ, b = r) :
    x * a + x * b = x * (a + b) := by
  obtain ⟨x, rfl⟩ := hx; obtain ⟨a, rfl⟩ := ha; obtain ⟨b, rfl⟩ := hb
  rw [← EReal.coe_mul, ← EReal.coe_mul, ← EReal.coe_add, ← EReal.coe_add, ← EReal.coe_mul, mul_add]

/-- The doubled row against the whole column is the row against the folded column. -/
theorem sum_doubled_row (x : Fin 128 → EReal) (cat w : Fin 256 → EReal)
    (hL : ∀ c : Fin 128, cat ⟨c.val, by omega⟩ = x c)
    (hR : ∀ c : Fin 128, cat ⟨128 + c.val, by omega⟩ = x c)
    (hx : ∀ c, ∃ r : ℝ, x c = r) (hw : ∀ c, ∃ r : ℝ, w c = r) :
    ∑ c : Fin 256, cat c * w c
      = ∑ c : Fin 128, x c * (w ⟨c.val, by omega⟩ + w ⟨128 + c.val, by omega⟩) := by
  have h := Fin.sum_univ_add (M := EReal) (a := 128) (b := 128) (fun c : Fin (128 + 128) => cat c * w c)
  refine Eq.trans h ?_
  rw [← Finset.sum_add_distrib]
  refine Finset.sum_congr rfl fun c _ => ?_
  rw [← mul_add_of_real (hx c) (hw _) (hw _)]
  refine congrArg₂ (· + ·) ?_ ?_
  · show cat ⟨c.val, _⟩ * w ⟨c.val, _⟩ = _
    rw [hL]
  · show cat ⟨128 + c.val, _⟩ * w ⟨128 + c.val, _⟩ = _
    rw [hR]

end Cert.FoldedWeight
-- ==== Proof.GatherRows.lean ====
/-
  `table[idx]` along axis 0: which element of the table a result element reads.

  A `stablehlo.gather` with offset axis 1, collapsed axis 0, start index map [0], the index vector on axis 1 and slices
  of one whole row — what `table[idx]` lowers to for a table [N, C] and R indices — reads, for result element (e, q),
  the table at (row e, q): the column is the result's column, and the row depends on `e` and on the start indices only
  (the e-th start index, read signed and clamped into the table), never on `q` and never on the table's contents. So
  gathering rows commutes with any map applied row by row, which is all this certificate needs of it: the row's value
  as a number is never computed.
-/
import Idealize.ShloMosaic.PureOps.ShapeOps
import Idealize.ShloMosaic.Lib.ValueIdx

namespace Cert.GatherRows

open Idealize.ShloMosaic Idealize.ShloMosaic.ValueIdx

/-- The dimension numbers of `table[idx]` for a table [N, C] at start indices [R, 1], result [R, C]. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

variable {N C R w : Nat}
  (wf : GatherDims.WF ⟨2, ![N, C]⟩ ⟨2, ![R, 1]⟩ ⟨2, ![R, C]⟩ [1] [0] [] [0] [] 1 ![1, C])
  (idx : IVec ⟨2, ![R, 1]⟩ w)

/-- The column read is the result's column. -/
theorem operandIdx_col (j : (⟨2, ![R, C]⟩ : Shape).Idx) :
    ((rowDims N C R wf).operandIdx j idx 1).val = (j 1).val := by
  show (rowDims N C R wf).start j idx 1 + (rowDims N C R wf).batchCoord j 1 + (rowDims N C R wf).offCoord j 1 = _
  rw [GatherDims.batchCoord_eq_zero _ _ _ List.not_mem_nil]
  unfold GatherDims.start
  rw [dif_neg (show (1 : Fin 2) ∉ ([0] : List (Fin 2)) by decide)]
  unfold GatherDims.offCoord
  rw [dif_pos ((GatherDims.mem_sKept _ _).mpr
    ⟨show (1 : Fin 2) ∉ ([0] : List (Fin 2)) by decide, List.not_mem_nil⟩)]
  simp only [Nat.add_zero, Nat.zero_add]
  rfl

/-- The row read depends on the result's row only. -/
theorem operandIdx_row (j j' : (⟨2, ![R, C]⟩ : Shape).Idx) (h : j 0 = j' 0) :
    ((rowDims N C R wf).operandIdx j idx 0).val = ((rowDims N C R wf).operandIdx j' idx 0).val := by
  show (rowDims N C R wf).start j idx 0 + (rowDims N C R wf).batchCoord j 0 + (rowDims N C R wf).offCoord j 0
    = (rowDims N C R wf).start j' idx 0 + (rowDims N C R wf).batchCoord j' 0 + (rowDims N C R wf).offCoord j' 0
  rw [GatherDims.batchCoord_eq_zero _ _ _ List.not_mem_nil, GatherDims.batchCoord_eq_zero _ _ _ List.not_mem_nil,
    GatherDims.offCoord_eq_zero _ j _ (fun h => ((GatherDims.mem_sKept _ _).mp h).1 (List.mem_singleton.mpr rfl)),
    GatherDims.offCoord_eq_zero _ j' _ (fun h => ((GatherDims.mem_sKept _ _).mp h).1 (List.mem_singleton.mpr rfl))]
  unfold GatherDims.start
  have h0 : (0 : Fin 2) ∈ (rowDims N C R wf).startIndexMap := List.mem_singleton.mpr rfl
  rw [dif_pos h0, dif_pos h0]
  have hsi : ∀ c, (rowDims N C R wf).siIdx j c = (rowDims N C R wf).siIdx j' c := fun c => by
    funext b
    refine Fin.ext ?_
    match b with
    | ⟨0, _⟩ => exact congrArg Fin.val h
    | ⟨1, _⟩ => rfl
  rw [hsi]

end Cert.GatherRows
-- ==== Proof.Bridge.lean ====
/-
  The two results are one function of the arguments.

  The reference's result at (e, q) is the perceptron, with the whole first-layer weight, of the gathered row written
  twice; the kernel's is row `row e` of the perceptron table of the node table with the first-layer weight folded in
  two, where `row e` is the row the gather reads for result row `e`. The gather reads the same row of whichever table it
  is given (its operand index depends on the start indices only), so the gathered row's entry `c` is the node table's
  entry `(row e, c)`; and the doubled row against the whole weight column is the row against the folded column
  (`FoldedWeight.sum_doubled_row`), the node table and the weight being finite.
-/
import proofs.«156043_j64879775973998_2_alg».proof.Proof.RefValue
import proofs.«156043_j64879775973998_2_alg».proof.Proof.MlpSpec
import proofs.«156043_j64879775973998_2_alg».proof.Proof.FoldedWeight
import proofs.«156043_j64879775973998_2_alg».proof.Proof.GatherRows

noncomputable section

open scoped BigOperators

namespace Cert.Bridge

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S800000, .i32⟩ : BufTy).Contents (Elt Ideal))
  (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The reference's result is the gather, at the reference's own start indices, of the perceptron table of the node
    table under ANY first-layer weight `w` that is the whole weight folded in two. -/
theorem result_eq_gather_mlp (w : S128x128.Idx → EReal)
    (hw : ∀ c k : Fin 128, w (ix2 c k)
      = x2 (ix2 (⟨c.val, by omega⟩ : Fin 256) k) + x2 (ix2 (⟨128 + c.val, by omega⟩ : Fin 256) k))
    (hx0 : ∀ i, ∃ r : ℝ, x0 i = r) (hx2 : ∀ i, ∃ r : ℝ, x2 i = r) :
    val_main_v16 (F := Ideal) x0 x1 x2 x3 x4 x5
      = Host.gather gather_S50000x128_S800000x1_S800000x128_1_0_n_n_0_1_1128 (MlpSpec.mlp x0 w x3 x4 x5)
          (val_main_v5 (F := Ideal) x1) := by
  funext i
  obtain ⟨e, q, rfl⟩ : ∃ (e : Fin 800000) (q : Fin 128), i = ix2 e q := ⟨i 0, i 1, eq_ix2 i⟩
  rw [RefValue.result_apply]
  -- the row of the table that result row `e` reads
  let n : Fin 50000 :=
    ⟨(gather_S50000x128_S800000x1_S800000x128_1_0_n_n_0_1_1128.operandIdx (ix2 e q) (val_main_v5 (F := Ideal) x1) 0).val,
      (gather_S50000x128_S800000x1_S800000x128_1_0_n_n_0_1_1128.operandIdx (ix2 e q) (val_main_v5 (F := Ideal) x1) 0).isLt⟩
  have hrow : ∀ c : Fin 128,
      gather_S50000x128_S800000x1_S800000x128_1_0_n_n_0_1_1128.operandIdx (ix2 e c) (val_main_v5 (F := Ideal) x1) = ix2 n c :=
    fun c => funext fun a => Fin.ext (by
      match a with
      | ⟨0, _⟩ =>
        exact GatherRows.operandIdx_row gather_S50000x128_S800000x1_S800000x128_1_0_n_n_0_1_1128.wf
          (val_main_v5 (F := Ideal) x1) (ix2 e c) (ix2 e q) rfl
      | ⟨1, _⟩ =>
        exact GatherRows.operandIdx_col gather_S50000x128_S800000x1_S800000x128_1_0_n_n_0_1_1128.wf
          (val_main_v5 (F := Ideal) x1) (ix2 e c))
  show _ = MlpSpec.mlp x0 w x3 x4 x5
    (gather_S50000x128_S800000x1_S800000x128_1_0_n_n_0_1_1128.operandIdx (ix2 e q) (val_main_v5 (F := Ideal) x1))
  rw [hrow q]
  show _ = MlpSpec.out x0 w x3 x4 x5 n q
  unfold MlpSpec.out MlpSpec.hidden
  refine congrArg₂ (· + ·) (Finset.sum_congr rfl fun k _ => ?_) rfl
  refine congrArg₂ (· * ·) (congrArg₂ max (congrArg₂ (· + ·) ?_ rfl) rfl) rfl
  -- the gathered row's entries are the node table's row `n`
  have hg : ∀ c : Fin 128, val_main_v6 (F := Ideal) x0 x1 (ix2 e c) = x0 (ix2 n c) := fun c => by
    show x0 (gather_S50000x128_S800000x1_S800000x128_1_0_n_n_0_1_1128.operandIdx (ix2 e c) (val_main_v5 (F := Ideal) x1)) = _
    rw [hrow c]
  refine (FoldedWeight.sum_doubled_row (fun c => x0 (ix2 n c)) (fun c => val_main_v7 (F := Ideal) x0 x1 (ix2 e c))
    (fun c => x2 (ix2 c k)) (fun c => (RefValue.cat_left x0 x1 e c).trans (hg c))
    (fun c => (RefValue.cat_right x0 x1 e c).trans (hg c)) (fun c => hx0 _) (fun c => hx2 _)).trans ?_
  refine Finset.sum_congr rfl fun c _ => ?_
  rw [hw c k]

end Cert.Bridge

end
-- ==== Proof.FiniteInputs.lean ====
/-
  What the precondition says of the node table and of the first-layer weight: every entry is a real number.

  The precondition is the conjunction, over the five float arguments, of `all (|a| < +∞)`. Each `all` is a reduction by
  `and` into one word, so when the conjunction is 1 each reduction is 1 and every compared element is 1; and an extended
  real whose absolute value `max a (-a)` is below `+∞` is neither `+∞` nor `-∞`. Only the table's and the first-layer
  weight's finiteness is used: they are the factors of the products that distributivity rearranges.
-/
import proofs.«156043_j64879775973998_2_alg».proof.Pre_finite_inputs
import proofs.«156043_j64879775973998_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx

instance : Subsingleton (⟨0, ![]⟩ : Shape).Idx := ⟨fun _ _ => funext fun d => d.elim0⟩

/-- The word `0x7F800000` is `+∞`. -/
theorem inf_word : Ideal.ofBits .f32 0x7F800000#32 = ⊤ := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | top => simp [Ideal.cmp] at h
  | coe r => exact ⟨r, rfl⟩

/-- `all (|a| < +∞) = 1` makes every entry of `a` a real number. -/
theorem all_finite {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi
        (cmpf .olt (Host.absf a) (broadcastInDim s ![] hb (constant (F := Ideal) ⟨0, ![]⟩ .f32 0x7F800000#32)))
        (constantI ⟨0, ![]⟩ 1 1#1) hr hu ix0 = 1#1) (i : s.Idx) : ∃ r : ℝ, a i = r :=
  real_of_abs_lt_inf (a i) (Host.reduce_andi_all _ _ hr hu ix0 h i)

open Cert.Pre_finite_inputs in
/-- Under the precondition every entry of the node table and of the first-layer weight is a real number. -/
theorem of_pre (a0 : FVec Ideal S50000x128 .f32) (a1 : IVec S800000 32) (a2 : FVec Ideal S256x128 .f32)
    (a3 : FVec Ideal S128 .f32) (a4 : FVec Ideal S128x128 .f32) (a5 : FVec Ideal S128 .f32)
    (h : Cert.Pre_finite_inputs.fn (F := Ideal) a0 a1 a2 a3 a4 a5 = fun _ => 1#1) :
    (∀ i, ∃ r : ℝ, a0 i = r) ∧ (∀ i, ∃ r : ℝ, a2 i = r) := by
  have h0 := congrFun h ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  obtain ⟨h4, h5⟩ := IntOp.andi_eq_one.1 h3
  exact ⟨fun i => all_finite a0 _ _ _ h4 i, fun i => all_finite a2 _ _ _ h5 i⟩

end Cert.FiniteInputs

end
-- ==== Proof.lean ====
/-
  A two-layer perceptron applied to gathered rows, against the gather applied to the perceptron's table.

  The reference gathers 800000 rows of a node table [50000, 128] (a negative index wrapped by the table's length, then
  clamped into the table), writes each gathered row twice side by side, and applies
  `relu (row₂ · W₁ + b₁) · W₂ + b₂` with the whole first-layer weight W₁ [256, 128]. The kernel folds W₁ in two
  (rows 0–127 plus rows 128–255), computes the perceptron of all 50000 rows of the node table in ten blocks of 5000
  rows, and gathers rows of that table at the same start indices.

  On the extended reals the two results are equal, element by element, when the node table and W₁ are finite:
    • the gather reads the same row of whichever table it is given, so gathering commutes with a map applied row by
      row (`GatherRows`);
    • a row written twice against W₁'s column is the row against the folded column — the 256-term sum split in two and
      distributivity, which is where finiteness is used (`FoldedWeight`); the precondition gives it (`FiniteInputs`).
  The kernel's side: what the body stores at one element (`BlockValue`), the ten blocks tiling the table
  (`KernelTable`), the lines of @main around the region (`KernelRun`). The reference's side: its run, one operation at
  a time (`RefValue`). The two meet in `Bridge`. The frames are the programs' runs with the results dropped; nothing
  was rewritten between the kernel and its idealization, so that claim is trivial.
-/
import proofs.«156043_j64879775973998_2_alg».proof.Defs
import proofs.«156043_j64879775973998_2_alg».proof.Proof.Gen.Kernel
import proofs.«156043_j64879775973998_2_alg».proof.Proof.Gen.Kernel.Skeleton
import proofs.«156043_j64879775973998_2_alg».proof.Proof.Gen.Kernel.Launch
import proofs.«156043_j64879775973998_2_alg».proof.Proof.Gen.Kernel.Points
import proofs.«156043_j64879775973998_2_alg».proof.Proof.Gen.Kernel.Frame
import proofs.«156043_j64879775973998_2_alg».proof.Proof.Gen.KernelIdeal
import proofs.«156043_j64879775973998_2_alg».proof.Proof.Gen.KernelIdeal.Skeleton
import proofs.«156043_j64879775973998_2_alg».proof.Proof.Gen.KernelIdeal.Launch
import proofs.«156043_j64879775973998_2_alg».proof.Proof.Gen.KernelIdeal.Points
import proofs.«156043_j64879775973998_2_alg».proof.Proof.Gen.KernelIdeal.Frame
import proofs.«156043_j64879775973998_2_alg».proof.Proof.Gen.ReferenceIdeal
import proofs.«156043_j64879775973998_2_alg».proof.Proof.Gen.ReferenceIdeal.Run
import proofs.«156043_j64879775973998_2_alg».proof.Proof.Gen.ReferenceIdeal.Read
import proofs.«156043_j64879775973998_2_alg».proof.Proof.Gen.Pre_finite_inputs
import proofs.«156043_j64879775973998_2_alg».proof.Proof.KernelRun
import proofs.«156043_j64879775973998_2_alg».proof.Proof.Bridge
import proofs.«156043_j64879775973998_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments, with the float arguments finite, both programs end with the gather of
    the perceptron table under the folded weight: the kernel by its run, the reference by the bridge. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨hx0, hx2⟩ := Cert.FiniteInputs.of_pre _ _ _ _ _ _ (hpre c)
  rw [(hagree c).1, (hagree c).2.1, (hagree c).2.2.1, (hagree c).2.2.2.1, (hagree c).2.2.2.2.1, (hagree c).2.2.2.2.2]
  refine (Cert.ReferenceIdeal.Read.val_main_v16_eq _ _ _ _ _ _).trans ?_
  exact Cert.Bridge.result_eq_gather_mlp _ _ _ _ _ _ (Cert.KernelIdeal.Run.foldedW _)
    (Cert.KernelIdeal.Run.foldedW_apply _) hx0 hx2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
